-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1280000 : Shape := ⟨1, ![1280000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1280000 : S_.BroadcastsInDim S1280000 (![] : Fin 0 → Fin S1280000.rank)
  reducesTo_S1280000_S_d0 : S1280000.ReducesTo [0] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : FVec F S1280000 .f32) (main_arg2 : FVec F S64x64 .f32) (main_arg3 : IVec S1280000 32) (main_arg4 : IVec S1280000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1280000 .f32 := Host.absf main_arg1
  let main_cst_0 : FVec F S_ .f32 := constant S_ .f32 0x7F800000#32
  let main_v5 : FVec F S1280000 .f32 := broadcastInDim S1280000 ![] bcast_S_S1280000 main_cst_0
  let main_v6 : IVec S1280000 1 := cmpf .olt main_v4 main_v5
  let main_c_1 : IVec S_ 1 := constantI S_ 1 1#1
  let main_v7 : IVec S_ 1 := (fun x v => Host.reduce IntOp.andi x v reducesTo_S1280000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S100000x64 : Shape := ⟨2, ![100000, 64]⟩
abbrev S1280000 : Shape := ⟨1, ![1280000]⟩
abbrev S64x64 : Shape := ⟨2, ![64, 64]⟩
abbrev S_ : Shape := ⟨0, ![]⟩
abbrev S1280000x1 : Shape := ⟨2, ![1280000, 1]⟩
abbrev S1280000x64 : Shape := ⟨2, ![1280000, 64]⟩
abbrev S10000x64 : Shape := ⟨2, ![10000, 64]⟩
abbrev S10000x1 : Shape := ⟨2, ![10000, 1]⟩
abbrev S100000 : Shape := ⟨1, ![100000]⟩
abbrev S100000x1 : Shape := ⟨2, ![100000, 1]⟩
abbrev S5000x64 : Shape := ⟨2, ![5000, 64]⟩
abbrev S5000x1 : Shape := ⟨2, ![5000, 1]⟩

abbrev nBuf : Space → Nat
  | .hbm => 28
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S1280000, .f32⟩
  | .hbm, ⟨2, _⟩ => ⟨S64x64, .f32⟩
  | .hbm, ⟨3, _⟩ => ⟨S1280000, .i32⟩
  | .hbm, ⟨4, _⟩ => ⟨S1280000, .i32⟩
  | .hbm, ⟨5, _⟩ => ⟨S_, .i32⟩
  | .hbm, ⟨6, _⟩ => ⟨S1280000, .i32⟩
  | .hbm, ⟨7, _⟩ => ⟨S1280000, .i1⟩
  | .hbm, ⟨8, _⟩ => ⟨S_, .i32⟩
  | .hbm, ⟨9, _⟩ => ⟨S1280000, .i32⟩
  | .hbm, ⟨10, _⟩ => ⟨S1280000, .i32⟩
  | .hbm, ⟨11, _⟩ => ⟨S1280000, .i32⟩
  | .hbm, ⟨12, _⟩ => ⟨S1280000x1, .i32⟩
  | .hbm, ⟨13, _⟩ => ⟨S1280000x64, .f32⟩
  | .hbm, ⟨14, _⟩ => ⟨S1280000x1, .f32⟩
  | .hbm, ⟨15, _⟩ => ⟨S1280000x64, .f32⟩
  | .hbm, ⟨16, _⟩ => ⟨S_, .f32⟩
  | .hbm, ⟨17, _⟩ => ⟨S100000x64, .f32⟩
  | .hbm, ⟨18, _⟩ => ⟨S1280000x1, .i32⟩
  | .hbm, ⟨19, _⟩ => ⟨S100000x64, .f32⟩
  | .hbm, ⟨20, _⟩ => ⟨S_, .f32⟩
  | .hbm, ⟨21, _⟩ => ⟨S1280000, .f32⟩
  | .hbm, ⟨22, _⟩ => ⟨S_, .f32⟩
  | .hbm, ⟨23, _⟩ => ⟨S100000, .f32⟩
  | .hbm, ⟨24, _⟩ => ⟨S1280000x1, .i32⟩
  | .hbm, ⟨25, _⟩ => ⟨S100000, .f32⟩
  | .hbm, ⟨26, _⟩ => ⟨S100000x1, .f32⟩
  | .hbm, ⟨27, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S64x64, .f32⟩
  | .local _ .vmem, ⟨11, _⟩ => ⟨S5000x64, .f32⟩
  | .local _ .vmem, ⟨12, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1280000 : S_.BroadcastsInDim S1280000 (![] : Fin 0 → Fin S1280000.rank)
  bcast_S1280000_S1280000x1_0 : S1280000.BroadcastsInDim S1280000x1 (![0] : Fin 1 → Fin S1280000x1.rank)
  shapeCasts_S1280000_S1280000x1 : S1280000.ShapeCasts S1280000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  scatter_S100000_S1280000x1_S1280000_n_0_0_1_wf : ScatterDims.WF S100000 S1280000x1 S1280000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1280000x64.size a
  hwx0_0 : ∀ i : grid0.Coords, EltTy.bits .f32 = 32 ∨ (Rect.block (s := S1280000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1280000x1.size a
  hwx0_1 : ∀ i : grid0.Coords, EltTy.bits .f32 = 32 ∨ (Rect.block (s := S1280000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S1280000x64.size a
  hwx0_2 : ∀ i : grid0.Coords, EltTy.bits .f32 = 32 ∨ (Rect.block (s := S1280000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S1280000 : Shape := ⟨1, ![1280000]⟩
abbrev S64x64 : Shape := ⟨2, ![64, 64]⟩
abbrev S_ : Shape := ⟨0, ![]⟩
abbrev S1280000x1 : Shape := ⟨2, ![1280000, 1]⟩
abbrev S1280000x64 : Shape := ⟨2, ![1280000, 64]⟩
abbrev S100000 : Shape := ⟨1, ![100000]⟩
abbrev S100000x1 : Shape := ⟨2, ![100000, 1]⟩

abbrev nBuf : Space → Nat
  | .hbm => 37
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1280000, .f32⟩
  | .hbm, ⟨2, _⟩ => ⟨S64x64, .f32⟩
  | .hbm, ⟨3, _⟩ => ⟨S1280000, .i32⟩
  | .hbm, ⟨4, _⟩ => ⟨S1280000, .i32⟩
  | .hbm, ⟨5, _⟩ => ⟨S_, .i32⟩
  | .hbm, ⟨6, _⟩ => ⟨S1280000, .i32⟩
  | .hbm, ⟨7, _⟩ => ⟨S1280000, .i1⟩
  | .hbm, ⟨8, _⟩ => ⟨S_, .i32⟩
  | .hbm, ⟨9, _⟩ => ⟨S1280000, .i32⟩
  | .hbm, ⟨10, _⟩ => ⟨S1280000, .i32⟩
  | .hbm, ⟨11, _⟩ => ⟨S1280000, .i32⟩
  | .hbm, ⟨12, _⟩ => ⟨S1280000x1, .i32⟩
  | .hbm, ⟨13, _⟩ => ⟨S1280000x64, .f32⟩
  | .hbm, ⟨14, _⟩ => ⟨S1280000x1, .f32⟩
  | .hbm, ⟨15, _⟩ => ⟨S1280000x64, .f32⟩
  | .hbm, ⟨16, _⟩ => ⟨S1280000x64, .f32⟩
  | .hbm, ⟨17, _⟩ => ⟨S_, .f32⟩
  | .hbm, ⟨18, _⟩ => ⟨S100000x64, .f32⟩
  | .hbm, ⟨19, _⟩ => ⟨S1280000x1, .i32⟩
  | .hbm, ⟨20, _⟩ => ⟨S100000x64, .f32⟩
  | .hbm, ⟨21, _⟩ => ⟨S_, .f32⟩
  | .hbm, ⟨22, _⟩ => ⟨S1280000, .f32⟩
  | .hbm, ⟨23, _⟩ => ⟨S_, .f32⟩
  | .hbm, ⟨24, _⟩ => ⟨S100000, .f32⟩
  | .hbm, ⟨25, _⟩ => ⟨S1280000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  scatter_S100000_S1280000x1_S1280000_n_0_0_1_wf : ScatterDims.WF S100000 S1280000x1 S1280000 [] [0] [0] 1
  dot_S100000x64_S64x64_S100000x64_1_0_0_1_n_n_wf : DotDims.WF S100000x64 S64x64 S100000x64 [1] [0] [0] [1] [] []

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.TwoRegionRun.lean ====
/-
  The program is two tiled regions between stretches of host operations. Every weakly fair execution from a
  memory with zero counters terminates without a fault; the arguments end as launched; and the result array ends
  holding what the buffer contents, folded through the host stretches and the two regions in program order, give
  at it: the contents named `Gen.W4` — the second region's write-backs over the contents its entry found.
-/
import proofs.«134071_j14491219657349_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The run with the result named: after every weakly fair execution the result array holds the last
    boundary's contents at its buffer, and each argument array what it held at launch. -/
theorem run_named : θ_run defs (onTc (τ := τ) (main (F := F))) ⟨m, fun _ => 0, ρ⟩ (fun r => ∀ c : Dev nD,
      r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v17 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Whole

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.EdgeMessages.lean ====
/-
  The first region scales each row of an [E, 64] array by the entry of an [E, 1] column in the same row, ten
  thousand rows to a grid point. Whatever contents the region finds in its two input arrays, after its 128
  write-backs the output array holds, at (e, d), the first array's entry (e, d) times the column's entry (e, 0):
  a block at point t is rows 10000 t … 10000 t + 9999 of that one whole-array function, and the blocks tile the rows.
-/
import proofs.«134071_j14491219657349_1_alg».proof.Proof.Gen.KernelIdeal.Frame
import proofs.«134071_j14491219657349_1_alg».proof.Proof.LibKeepdims
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.SL.Sem
open Idealize.ShloMosaic.Pipeline (Dat)
open Idealize.ShloMosaic.ValueIdx
open Cert.KernelIdeal Cert.KernelIdeal.Gen

variable {F : FTy → Type} [FloatOps F]

theorem offsets_zero : (![0, 0] : Fin 2 → Nat) = fun _ => 0 := funext fun a => by fin_cases a <;> rfl

/-- Row e's entry of the column, for an index (e, d) of the wide array. -/
abbrev edgeCol (i : S1280000x64.Idx) : S1280000x1.Idx := fun a => match a with
  | ⟨0, _⟩ => ⟨(i 0).val, (i 0).isLt⟩
  | ⟨1, _⟩ => ⟨0, Nat.one_pos⟩

/-- Each row scaled by its weight: entry (e, d) of the rows times entry (e, 0) of the weights' column. -/
def messages (h : S1280000x64.Idx → Elt F .f32) (w2 : S1280000x1.Idx → Elt F .f32) : S1280000x64.Idx → Elt F .f32 :=
  fun i => FloatOps.mulf (h i) (w2 (edgeCol i))

/-- The body's product at row p, lane q of a block: the rows' entry there times the column's entry in row p. -/
theorem blockProduct_apply (x0 : Vec F S10000x64 .f32) (x1 : Vec F S10000x1 .f32) (p : Fin 10000) (q : Fin 64) :
    k0_pay1 x0 x1 (ix2 p q) = FloatOps.mulf (x0 (ix2 p q)) (x1 (ix2 p (0 : Fin 1))) := by
  unfold k0_pay1
  show FloatOps.mulf (shapeCast S10000x64 x0 shapeCasts_S10000x64_S10000x64 (ix2 p q))
      (broadcastTo S10000x64 (shapeCast S10000x1 x1 shapeCasts_S10000x1_S10000x1) broadcasts_S10000x1_S10000x64 (ix2 p q)) = _
  rw [shapeCast_self, shapeCast_self, broadcastTo_a1_ab_apply]

/-- The same with the array's entries named: if the block's entry (p, q) is the array's at i and the column
    block's entry (p, 0) is the column's in i's row, the product is the whole-array function at i. -/
theorem blockProduct_eq (x0 : Vec F S10000x64 .f32) (x1 : Vec F S10000x1 .f32)
    (h : S1280000x64.Idx → Elt F .f32) (w2 : S1280000x1.Idx → Elt F .f32)
    (p : Fin 10000) (q : Fin 64) (i : S1280000x64.Idx)
    (e0 : x0 (ix2 p q) = h i) (e1 : x1 (ix2 p (0 : Fin 1)) = w2 (edgeCol i)) :
    k0_pay1 x0 x1 (ix2 p q) = messages h w2 i := by
  rw [blockProduct_apply, e0, e1]; rfl

/-- The printed index maps over the grid: at point t all three windows sit at block row t, block column 0. -/
theorem blockRows0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt F) ((c : Thread nD τ).loc b))

/-- What point t writes back is its block of the whole-array function of the two input arrays. -/
theorem flushed0_eq (c : Dev nD) (t : Fin cfg0.N) :
    (dat0 V c).flushed 2 t = ((cfg0.win 2).blk t).view.read (Elt F) (messages (V c main_v6) (V c main_v7)) := by
  show (cfg0.win 2).cut (grid0.coords t) ((dat0 V c).after 2 t) = _
  rw [after0_2]
  unfold out0_2
  rw [View.canon_unit_zero offsets_zero]
  simp only [View.ld_unit_zero (S := S10000x64) offsets_zero, View.ld_unit_zero (S := S10000x1) offsets_zero]
  obtain ⟨a0, a1, b0, b1, c0, c1⟩ := blockRows0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = messages (V c main_v6) (V c main_v7) (((cfg0.win 2).blk t).view.emb (ix2 p q))
  refine blockProduct_eq _ _ _ _ p q _ ?_ ?_
  · show V c main_v6 (((cfg0.win 0).blk t).view.emb (ix2 p q)) = V c main_v6 (((cfg0.win 2).blk t).view.emb (ix2 p q))
    refine congrArg (V c main_v6) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * q.val = win0_2.index t (1 : Fin 2) * 64 + 1 * q.val; omega
  · show V c main_v7 (((cfg0.win 1).blk t).view.emb (ix2 p (0 : Fin 1))) = V c main_v7 (edgeCol (((cfg0.win 2).blk t).view.emb (ix2 p q)))
    refine congrArg (V c main_v7) (funext fun a => Fin.ext ?_)
    match a with
    | ⟨0, _⟩ => show win0_1.index t (0 : Fin 2) * 10000 + 1 * p.val = win0_2.index t (0 : Fin 2) * 10000 + 1 * p.val; omega
    | ⟨1, _⟩ => show win0_1.index t (1 : Fin 2) * 1 + 1 * 0 = 0; omega

/-- An index of the output array is in point t's block iff each coordinate is in the block's range on its axis. -/
theorem mem_block0 (t : Fin cfg0.N) (i : S1280000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v8).slice (win0_2.rect t)).set ↔ _
  rw [View.set_slice_whole, Rect.mem_set_unit]
  exact Iff.rfl

/-- Row e lies in the block of point e / 10000: the blocks tile the rows. -/
theorem covered0 (i : S1280000x64.Idx) :
    ∃ t : Fin cfg0.N, (cfg0.win 2).flush t = true ∧ i ∈ ((cfg0.win 2).blk t).view.set := by
  have hN : cfg0.N = 128 := N_0
  have hi0 : (i 0).val < 1280000 := (i 0).isLt
  have hi1 : (i 1).val < 64 := (i 1).isLt
  let t : Fin cfg0.N := ⟨(i 0).val / 10000, by rw [hN]; omega⟩
  obtain ⟨a0, a1, b0, b1, c0, c1⟩ := blockRows0 t
  have ht : t.val = (i 0).val / 10000 := rfl
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region's write-backs the output array holds the whole-array function of the two inputs as found. -/
theorem messages_array (c : Dev nD) : (dat0 V c).arrAt 2 cfg0.N = messages (V c main_v6) (V c main_v7) :=
  (dat0 V c).arrAt_eq_of_cover 2 (messages (V c main_v6) (V c main_v7)) (fun t _ => flushed0_eq V c t) covered0

end Cert.KernelIdeal.Whole

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.NodeProjection.lean ====
/-
  The second region, at the extended reals. Five thousand node rows to a grid point: each row of an [N, 64] array is
  scaled by 1 / max(d, 1), d the entry of an [N, 1] column in that row, and the scaled rows are multiplied into a
  64 x 64 matrix held whole. Narrowing to bf16 before the product is the identity here, and the matrix unit's product
  into a zero accumulator is the plain sum over the 64 inner positions. So, whatever contents the region finds in its
  three input arrays, after its 20 write-backs the output array holds at (n, c)
      sum over k of (rows (n, k) * (1 / max (column (n, 0), 1))) * matrix (k, c):
  a block at point t is rows 5000 t … 5000 t + 4999 of that one whole-array function, and the blocks tile the rows.
-/
import proofs.«134071_j14491219657349_1_alg».proof.Proof.Gen.KernelIdeal.Frame
import proofs.«134071_j14491219657349_1_alg».proof.Proof.LibKeepdims
import proofs.«134071_j14491219657349_1_alg».proof.Proof.LibDotIx2
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Whole

open Idealize.ShloMosaic Idealize.ShloMosaic.TcCoe Idealize.SL.Sem
open Idealize.ShloMosaic.Pipeline (Dat)
open Idealize.ShloMosaic.ValueIdx
open Cert.KernelIdeal Cert.KernelIdeal.Gen

theorem origin_zero : (![0, 0] : Fin 2 → Nat) = fun _ => 0 := funext fun a => by fin_cases a <;> rfl

/-- The float 1.0, by its bit pattern, as an extended real. -/
abbrev one32 : EReal := FloatOps.ofBits (F := Ideal) .f32 0x3F800000#32

/-- Entry (n, k) of the rows, for an index (n, c) of the result. -/
abbrev nodeRow (i : S100000x64.Idx) (k : Fin 64) : S100000x64.Idx := fun a => match a with
  | ⟨0, _⟩ => ⟨(i 0).val, (i 0).isLt⟩
  | ⟨1, _⟩ => ⟨k.val, k.isLt⟩
/-- Entry (n, 0) of the column, for an index (n, c) of the result. -/
abbrev nodeCol (i : S100000x64.Idx) : S100000x1.Idx := fun a => match a with
  | ⟨0, _⟩ => ⟨(i 0).val, (i 0).isLt⟩
  | ⟨1, _⟩ => ⟨0, Nat.one_pos⟩
/-- Entry (k, c) of the matrix, for an index (n, c) of the result. -/
abbrev matEntry (i : S100000x64.Idx) (k : Fin 64) : S64x64.Idx := fun a => match a with
  | ⟨0, _⟩ => ⟨k.val, k.isLt⟩
  | ⟨1, _⟩ => ⟨(i 1).val, (i 1).isLt⟩

/-- Rows normalised by their clamped column entry, then projected by the matrix. -/
def projected (rows : S100000x64.Idx → EReal) (col : S100000x1.Idx → EReal) (mat : S64x64.Idx → EReal) : S100000x64.Idx → EReal :=
  fun i => ∑ k : Fin 64, (rows (nodeRow i k) * Ideal.div one32 (max (col (nodeCol i)) one32)) * mat (matEntry i k)

/-- The body's dimension numbers are those of a plain 5000 x 64 by 64 x 64 product. -/
theorem blockDot : PlainDot dot_S5000x64_S64x64_S5000x64_1_0_0_1_n_n where
  rank := rfl
  size := rfl
  l0 := fun j q => by
    unfold DotDims.lhsIdx
    rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
    rfl
  l1 := fun j q => dot_S5000x64_S64x64_S5000x64_1_0_0_1_n_n.lhsIdx_val_of_single rfl j q
  r0 := fun j q => dot_S5000x64_S64x64_S5000x64_1_0_0_1_n_n.rhsIdx_val_of_single rfl j q
  r1 := fun j q => by
    unfold DotDims.rhsIdx
    rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
    rfl

/-- The body's result at row p, lane q of a block, from the three loaded blocks. -/
theorem blockProjection_apply (v0 : Vec Ideal S5000x1 .f32) (v6 : Vec Ideal S5000x64 .f32) (v11 : Vec Ideal S64x64 .f32)
    (p : Fin 5000) (q : Fin 64) :
    k1_pay1 v0 v6 v11 (ix2 p q)
      = ∑ k : Fin 64, ((v6 (ix2 p k) : EReal) * Ideal.div one32 (max (v0 (ix2 p (0 : Fin 1)) : EReal) one32)) * (v11 (ix2 k q) : EReal) := by
  unfold k1_pay1
  refine (matmul_zero_ix2_any blockDot none _ _ p q).trans ?_
  refine Finset.sum_congr rfl fun k _ => ?_
  show ((shapeCast S5000x64 v6 shapeCasts_S5000x64_S5000x64 (ix2 p k) : EReal)
      * (broadcastTo S5000x64 (divf (F := Ideal) (broadcast S5000x1 (FloatOps.ofBits (F := Ideal) .f32 0x3F800000#32))
          (maximumf (F := Ideal) (shapeCast S5000x1 v0 shapeCasts_S5000x1_S5000x1) (broadcast S5000x1 (FloatOps.ofBits (F := Ideal) .f32 0x3F800000#32)))) broadcasts_S5000x1_S5000x64 (ix2 p k) : EReal))
      * (v11 (ix2 k q) : EReal) = _
  rw [shapeCast_self, broadcastTo_a1_ab_apply]
  show (v6 (ix2 p k) : EReal) * Ideal.div one32 (max (shapeCast S5000x1 v0 shapeCasts_S5000x1_S5000x1 (ix2 p (0 : Fin 1)) : EReal) one32) * (v11 (ix2 k q) : EReal) = _
  rw [shapeCast_self]

/-- The same with the arrays' entries named. -/
theorem blockProjection_eq (v0 : Vec Ideal S5000x1 .f32) (v6 : Vec Ideal S5000x64 .f32) (v11 : Vec Ideal S64x64 .f32)
    (rows : S100000x64.Idx → EReal) (col : S100000x1.Idx → EReal) (mat : S64x64.Idx → EReal)
    (p : Fin 5000) (q : Fin 64) (i : S100000x64.Idx)
    (e6 : ∀ k : Fin 64, (v6 (ix2 p k) : EReal) = rows (nodeRow i k)) (e0 : (v0 (ix2 p (0 : Fin 1)) : EReal) = col (nodeCol i))
    (e11 : ∀ k : Fin 64, (v11 (ix2 k q) : EReal) = mat (matEntry i k)) :
    k1_pay1 v0 v6 v11 (ix2 p q) = projected rows col mat i := by
  rw [blockProjection_apply]
  unfold projected
  refine Finset.sum_congr rfl fun k _ => ?_
  rw [e6 k, e0, e11 k]

/-- The printed index maps over the grid: at point t the rows, the column and the output sit at block row t, block
    column 0; the matrix at block (0, 0). -/
theorem blockRows1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is its block of the whole-array function of the three input arrays. -/
theorem flushed1_eq (c : Dev nD) (t : Fin cfg1.N) :
    (dat1 V c).flushed 3 t = ((cfg1.win 3).blk t).view.read (Elt Ideal) (projected (V c main_v11) (V c main_v16) (V c main_arg2)) := by
  show (cfg1.win 3).cut (grid1.coords t) ((dat1 V c).after 3 t) = _
  rw [after1_3]
  unfold out1_3
  rw [View.canon_unit_zero origin_zero]
  simp only [View.ld_unit_zero (S := S5000x64) origin_zero, View.ld_unit_zero (S := S5000x1) origin_zero, View.ld_unit_zero (S := S64x64) origin_zero]
  obtain ⟨a0, a1, b0, b1, c0, c1, d0, d1⟩ := blockRows1 t
  funext j
  obtain ⟨p, q, rfl⟩ : ∃ (p : Fin 5000) (q : Fin 64), j = ix2 p q := ⟨j 0, j 1, eq_ix2 j⟩
  show k1_pay1 (iblk1 V c 1 t) (iblk1 V c 0 t) (iblk1 V c 2 t) (ix2 p q)
    = projected (V c main_v11) (V c main_v16) (V c main_arg2) (((cfg1.win 3).blk t).view.emb (ix2 p q))
  refine blockProjection_eq _ _ _ _ _ _ p q _ (fun k => ?_) ?_ (fun k => ?_)
  · show V c main_v11 (((cfg1.win 0).blk t).view.emb (ix2 p k)) = V c main_v11 (nodeRow (((cfg1.win 3).blk t).view.emb (ix2 p q)) k)
    refine congrArg (V c main_v11) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  · show V c main_v16 (((cfg1.win 1).blk t).view.emb (ix2 p (0 : Fin 1))) = V c main_v16 (nodeCol (((cfg1.win 3).blk t).view.emb (ix2 p q)))
    refine congrArg (V c main_v16) (funext fun a => Fin.ext ?_)
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  · show V c main_arg2 (((cfg1.win 2).blk t).view.emb (ix2 k q)) = V c main_arg2 (matEntry (((cfg1.win 3).blk t).view.emb (ix2 p q)) k)
    refine congrArg (V c main_arg2) (funext fun a => Fin.ext ?_)
    match a with
    | ⟨0, _⟩ => show win1_2.index t (0 : Fin 2) * 64 + 1 * k.val = k.val; omega
    | ⟨1, _⟩ => show win1_2.index t (1 : Fin 2) * 64 + 1 * q.val = win1_3.index t (1 : Fin 2) * 64 + 1 * q.val; omega

/-- An index of the output array is in point t's block iff each coordinate is in the block's range on its axis. -/
theorem mem_block1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v17).slice (win1_3.rect t)).set ↔ _
  rw [View.set_slice_whole, Rect.mem_set_unit]
  exact Iff.rfl

/-- Row n lies in the block of point n / 5000: the blocks tile the rows. -/
theorem covered1 (i : S100000x64.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 64 := (i 1).isLt
  let t : Fin cfg1.N := ⟨(i 0).val / 5000, by rw [hN]; omega⟩
  obtain ⟨a0, a1, b0, b1, c0, c1, d0, d1⟩ := blockRows1 t
  have ht : t.val = (i 0).val / 5000 := rfl
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the region's write-backs the output array holds the whole-array function of the three inputs as found. -/
theorem projected_array (c : Dev nD) :
    (dat1 V c).arrAt 3 cfg1.N = projected (V c main_v11) (V c main_v16) (V c main_arg2) :=
  (dat1 V c).arrAt_eq_of_cover 3 (projected (V c main_v11) (V c main_v16) (V c main_arg2)) (fun t _ => flushed1_eq V c t) covered1

end Cert.KernelIdeal.Whole

end
-- ==== Proof.BoundaryContents.lean ====
/-
  What the arrays hold where each region is entered, as functions of the argument arrays. Before the first region the
  host gathers one row of the features per edge (a negative source number counting from the end) and recasts the
  edge weights as a column. Between the regions it sums the first region's output rows into their destination nodes,
  sums ones into the destination nodes (the in-degrees), and recasts the degrees as a column. The gather and the two
  sums are carried as named functions of their operands and never opened: the reference applies the same ones.
-/
import proofs.«134071_j14491219657349_1_alg».proof.Proof.Gen.KernelIdeal.Frame
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

variable {F : FTy → Type} [FloatOps F]

/-- One row of the features per edge: row src[e], or row src[e] + 100000 when src[e] is negative. -/
def gathered (x0 : (⟨S100000x64, .f32⟩ : BufTy).Contents (Elt F)) (x3 : (⟨S1280000, .i32⟩ : BufTy).Contents (Elt F)) :
    (⟨S1280000x64, .f32⟩ : BufTy).Contents (Elt F) :=
  Host.gather gather_S100000x64_S1280000x1_S1280000x64_1_0_n_n_0_1_164 x0
    (broadcastInDim S1280000x1 ![0] bcast_S1280000_S1280000x1_0
      (select (cmpi .slt x3 (broadcastInDim S1280000 ![] bcast_S_S1280000 (constantI S_ 32 0#32)))
        (addi x3 (broadcastInDim S1280000 ![] bcast_S_S1280000 (constantI S_ 32 100000#32))) x3))

/-- The edge weights as an [E, 1] column. -/
def weightColumn (x1 : (⟨S1280000, .f32⟩ : BufTy).Contents (Elt F)) : (⟨S1280000x1, .f32⟩ : BufTy).Contents (Elt F) :=
  shapeCast S1280000x1 x1 shapeCasts_S1280000_S1280000x1

/-- Per-edge rows summed into their destination nodes, from zeros. -/
def summedInto (x4 : (⟨S1280000, .i32⟩ : BufTy).Contents (Elt F)) (u : (⟨S1280000x64, .f32⟩ : BufTy).Contents (Elt F)) :
    (⟨S100000x64, .f32⟩ : BufTy).Contents (Elt F) :=
  Host.scatterAdd scatter_S100000x64_S1280000x1_S1280000x64_1_0_0_1
    (broadcastInDim S100000x64 ![] bcast_S_S100000x64 (constant S_ .f32 0x00000000#32))
    (broadcastInDim S1280000x1 ![0] bcast_S1280000_S1280000x1_0 x4) u

/-- The in-degrees: a one per edge summed into its destination node, from zeros. -/
def inDegree (x4 : (⟨S1280000, .i32⟩ : BufTy).Contents (Elt F)) : (⟨S100000, .f32⟩ : BufTy).Contents (Elt F) :=
  Host.scatterAdd scatter_S100000_S1280000x1_S1280000_n_0_0_1
    (broadcastInDim S100000 ![] bcast_S_S100000 (constant S_ .f32 0x00000000#32))
    (broadcastInDim S1280000x1 ![0] bcast_S1280000_S1280000x1_0 x4)
    (broadcastInDim S1280000 ![] bcast_S_S1280000 (constant S_ .f32 0x3F800000#32))

/-- The in-degrees as an [N, 1] column. -/
def degreeColumn (x4 : (⟨S1280000, .i32⟩ : BufTy).Contents (Elt F)) : (⟨S100000x1, .f32⟩ : BufTy).Contents (Elt F) :=
  shapeCast S100000x1 (inDegree x4) shapeCasts_S100000_S100000x1

variable (m : (ℓ : Loc nD τ sig) → Buf (Elt F) ℓ) (ρ : Dev nD → PrngReg)

/-- The first region finds the gathered rows in its first input array. -/
theorem entry0_rows (c : Dev nD) :
    (V1 m ρ c main_v6 : (⟨S1280000x64, .f32⟩ : BufTy).Contents (Elt F))
      = gathered (m ((c : Thread nD τ).loc main_arg0)) (m ((c : Thread nD τ).loc main_arg3)) := by
  show StableHlo.after hostOps0 (W0 m ρ c) (Proc.devRef .tc main_v6) = _
  after_results <;> rfl

/-- The first region finds the weights' column in its second input array. -/
theorem entry0_col (c : Dev nD) :
    (V1 m ρ c main_v7 : (⟨S1280000x1, .f32⟩ : BufTy).Contents (Elt F))
      = weightColumn (m ((c : Thread nD τ).loc main_arg1)) := by
  show StableHlo.after hostOps0 (W0 m ρ c) (Proc.devRef .tc main_v7) = _
  after_results <;> rfl

/-- The destinations are still as launched when the first region has run. -/
theorem exit0_dst (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results <;> rfl

/-- So is the weight matrix. -/
theorem exit0_mat (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results <;> rfl

/-- The first region's output array after its write-backs is what the second stretch of host operations reads. -/
theorem exit0_out (c : Dev nD) :
    W2 m ρ c (Proc.devRef .tc main_v8) = (dat0 (V1 m ρ) c).arrAt 2 cfg0.N := W2_arr m ρ c 2

/-- The second region finds, in its first input array, the first region's output rows summed into their destinations. -/
theorem entry1_rows (c : Dev nD) :
    (V3 m ρ c main_v11 : (⟨S100000x64, .f32⟩ : BufTy).Contents (Elt F))
      = summedInto (m ((c : Thread nD τ).loc main_arg4)) ((dat0 (V1 m ρ) c).arrAt 2 cfg0.N) := by
  show StableHlo.after hostOps1 (W2 m ρ c) (Proc.devRef .tc main_v11) = _
  after_results
  rw [exit0_dst, exit0_out]
  rfl

/-- In its second, the in-degrees' column. -/
theorem entry1_col (c : Dev nD) :
    (V3 m ρ c main_v16 : (⟨S100000x1, .f32⟩ : BufTy).Contents (Elt F))
      = degreeColumn (m ((c : Thread nD τ).loc main_arg4)) := by
  show StableHlo.after hostOps1 (W2 m ρ c) (Proc.devRef .tc main_v16) = _
  after_results
  rw [exit0_dst]
  rfl

/-- In its third, the weight matrix as launched. -/
theorem entry1_mat (c : Dev nD) :
    (V3 m ρ c main_arg2 : (⟨S64x64, .f32⟩ : BufTy).Contents (Elt F)) = m ((c : Thread nD τ).loc main_arg2) := by
  show StableHlo.after hostOps1 (W2 m ρ c) (Proc.devRef .tc main_arg2) = _
  after_results
  exact exit0_mat m ρ c

/-- The result array at the last boundary is the second region's output array after its write-backs. -/
theorem result_out (c : Dev nD) :
    W4 m ρ c (Proc.devRef .tc main_v17) = (dat1 (V3 m ρ) c).arrAt 3 cfg1.N := W4_arr m ρ c 3

end Cert.KernelIdeal.Whole

end
-- ==== Proof.KernelValue.lean ====
/-
  The kernel's result as one function of its five argument arrays, at the extended reals:
      layer = normalise-and-project ( sum-into-destinations ( gathered rows scaled by their edge weights ),
                                      in-degree column, weight matrix ).
  The run ends with the result array holding it: the result array is the second region's output after its write-backs,
  which is the projection of the contents that region found; those are the host's sums of the first region's output,
  which is the scaled rows of the contents the first region found; and those are the host's gather and the weights'
  column of the arguments.
-/
import proofs.«134071_j14491219657349_1_alg».proof.Proof.TwoRegionRun
import proofs.«134071_j14491219657349_1_alg».proof.Proof.EdgeMessages
import proofs.«134071_j14491219657349_1_alg».proof.Proof.NodeProjection
import proofs.«134071_j14491219657349_1_alg».proof.Proof.BoundaryContents

set_option maxRecDepth 16384

noncomputable section

namespace Cert.KernelIdeal.Whole

open Idealize.ShloMosaic Idealize.ShloMosaic.TcCoe Idealize.SL.Sem
open Cert.KernelIdeal Cert.KernelIdeal.Gen

/-- The layer: edge-weighted rows summed per destination node, divided by the clamped in-degree, times the matrix. -/
def layer (x0 : (⟨S100000x64, .f32⟩ : BufTy).Contents (Elt Ideal)) (x1 : (⟨S1280000, .f32⟩ : BufTy).Contents (Elt Ideal))
    (x2 : (⟨S64x64, .f32⟩ : BufTy).Contents (Elt Ideal)) (x3 x4 : (⟨S1280000, .i32⟩ : BufTy).Contents (Elt Ideal)) :
    (⟨S100000x64, .f32⟩ : BufTy).Contents (Elt Ideal) :=
  projected (summedInto x4 (messages (gathered x0 x3) (weightColumn x1))) (degreeColumn x4) x2

variable (m : (ℓ : Loc nD τ sig) → Buf (Elt Ideal) ℓ) (ρ : Dev nD → PrngReg)

/-- The last boundary's contents at the result array are the layer of the arguments as launched. -/
theorem result_value (c : Dev nD) :
    W4 m ρ c (Proc.devRef .tc main_v17)
      = layer (m ((c : Thread nD τ).loc main_arg0)) (m ((c : Thread nD τ).loc main_arg1)) (m ((c : Thread nD τ).loc main_arg2))
          (m ((c : Thread nD τ).loc main_arg3)) (m ((c : Thread nD τ).loc main_arg4)) := by
  rw [result_out, projected_array (V3 m ρ) c, entry1_rows, entry1_col, entry1_mat, messages_array (V1 m ρ) c,
    entry0_rows, entry0_col]
  rfl

/-- The run: every weakly fair execution terminates with the result array at the layer of the arguments, the
    arguments unchanged. -/
theorem run_value : θ_run defs (onTc (τ := τ) (main (F := Ideal))) ⟨m, fun _ => 0, ρ⟩ (fun r => ∀ c : Dev nD,
      r.2.mem ((c.tc : Thread nD τ).loc main_v17)
        = layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_value m ρ c), (h c).2⟩) (run_named m ρ)

end Cert.KernelIdeal.Whole

end
-- ==== Proof.SameFunction.lean ====
/-
  The reference computes the same function of the five argument arrays, at the extended reals. Its gather and its two
  sums into destination nodes are the kernel program's own, applied to the same operands; its per-edge product
  features[src] * w[:, None] reads the weight of edge e at every lane of row e, as the kernel's [E, 1] column does; and
  its last stage, a product of the normalised rows with the matrix, is at (n, c) the sum over the 64 inner positions k of
  (rows (n, k) * (1 / max (degree n, 1))) * matrix (k, c) — term for term the kernel's, the reference reading the degree
  of node n from an [N] vector placed as a column and spread across the lanes, the kernel from an [N, 1] recast of it.
-/
import proofs.«134071_j14491219657349_1_alg».proof.Proof.Gen.ReferenceIdeal.Read
import proofs.«134071_j14491219657349_1_alg».proof.Proof.KernelValue
import proofs.«134071_j14491219657349_1_alg».proof.Proof.LibKeepdims

set_option maxRecDepth 16384

noncomputable section

open scoped BigOperators

namespace Cert.SameFunction

open Idealize.ShloMosaic Idealize.ShloMosaic.ValueIdx
open Cert.KernelIdeal.Whole Cert.ReferenceIdeal.Read

variable (x0 : (⟨Cert.KernelIdeal.S100000x64, .f32⟩ : BufTy).Contents (Elt Ideal))
  (x1 : (⟨Cert.KernelIdeal.S1280000, .f32⟩ : BufTy).Contents (Elt Ideal))
  (x2 : (⟨Cert.KernelIdeal.S64x64, .f32⟩ : BufTy).Contents (Elt Ideal))
  (x3 x4 : (⟨Cert.KernelIdeal.S1280000, .i32⟩ : BufTy).Contents (Elt Ideal))

/-- One gather: the same dimension numbers, the same wrapped source numbers. -/
theorem gathered_eq : gathered (F := Ideal) x0 x3 = val_main_v6 (F := Ideal) x0 x3 := rfl

/-- The scaled rows: entry (e, d) of the gathered rows times the weight of edge e, in both spellings of the column. -/
theorem messages_eq : messages (gathered (F := Ideal) x0 x3) (weightColumn x1) = val_main_v9 (F := Ideal) x0 x1 x3 := by
  funext i
  rw [val_main_v9_apply, val_main_v8_apply, val_main_v7_apply]
  unfold messages weightColumn
  rw [gathered_eq]
  refine congrArg (FloatOps.mulf (F := Ideal) (φ := .f32) (val_main_v6 (F := Ideal) x0 x3 i)) ?_
  have he : edgeCol i = ix2 (⟨(i 0).val, (i 0).isLt⟩ : Fin 1280000) (0 : Fin 1) := funext fun a => by
    match a with
    | ⟨0, _⟩ => rfl
    | ⟨1, _⟩ => rfl
  rw [he, shapeCast_a_a1_apply]
  refine congrArg x1 (funext fun a => ?_)
  match a with
  | ⟨0, _⟩ => rfl

/-- One sum of rows into destination nodes, from zeros. -/
theorem summed_eq : summedInto (F := Ideal) x4 (val_main_v9 (F := Ideal) x0 x1 x3) = val_main_v12 (F := Ideal) x0 x1 x3 x4 := rfl

/-- One in-degree count. -/
theorem degree_eq : inDegree (F := Ideal) x4 = val_main_v16 (F := Ideal) x4 := rfl

/-- The kernel's layer is the reference's last stage. -/
theorem layer_eq : layer x0 x1 x2 x3 x4 = val_main_v24 (F := Ideal) x0 x1 x2 x3 x4 := by
  unfold layer
  rw [messages_eq, summed_eq]
  funext i
  rw [val_main_v24_apply]
  unfold projected
  refine Finset.sum_congr rfl fun k _ => ?_
  rw [val_main_v23_apply, val_main_v22_apply, val_main_v21_apply, val_main_v20_apply, val_main_v19_apply, val_main_cst_4_apply,
    val_main_v18_apply, val_main_v17_apply, val_main_cst_3_apply]
  have hr : nodeRow i k = lidx_main_v24 i k := rfl
  have hm : matEntry i k = ridx_main_v24 i k := rfl
  have hd : (degreeColumn (F := Ideal) x4 (nodeCol i) : EReal)
      = val_main_v16 (F := Ideal) x4 (idx_main_v21 (idx_main_v22 (lidx_main_v24 i k))) := by
    unfold degreeColumn
    rw [degree_eq]
    have hc : nodeCol i = ix2 (⟨(i 0).val, (i 0).isLt⟩ : Fin 100000) (0 : Fin 1) := funext fun a => by
      match a with
      | ⟨0, _⟩ => rfl
      | ⟨1, _⟩ => rfl
    rw [hc, shapeCast_a_a1_apply]
    refine congrArg (val_main_v16 (F := Ideal) x4) (funext fun a => ?_)
    match a with
    | ⟨0, _⟩ => rfl
  rw [hr, hm, hd]
  rfl

end Cert.SameFunction

end
-- ==== Proof.lean ====
/-
  One graph-convolution layer over 100000 nodes, 1280000 weighted edges and 64 features:
      out = ( segment_sum (features[src] * w[:, None], dst) * (1 / max (in-degree, 1))[:, None] ) @ W.
  The kernel program gathers and sums on the host, as the reference does, and runs two tiled regions: the per-edge
  scaling, ten thousand edge rows at a time, and the per-node normalisation fused with the 64 x 64 product, five
  thousand node rows at a time, its operands narrowed to bf16 on the way into the matrix unit.

  At the extended reals the two programs are one function of the five argument arrays. Narrowing is the identity there;
  the matrix unit's product into a zero accumulator and the host's dot_general are both the plain sum over the 64
  inner positions; a block of rows of a row-wise computation is the same rows of the whole-array computation, and the
  blocks tile the rows; the gather and the two sums into destination nodes are the same operations on the same operands
  in both programs and are never opened. No law of arithmetic beyond that is used, so finiteness of the inputs is not
  needed for the values. The kernel's idealization rewrote nothing, so it is the program's own text read at the
  extended reals.

  Modules: TwoRegionRun (the run, the result array named at the last boundary's contents), EdgeMessages and
  NodeProjection (each region's output array as one whole-array function of what the region found), BoundaryContents
  (what each region found, from the arguments), KernelValue (the kernel's result as the function `layer` of the
  arguments), SameFunction (the reference's last stage is `layer`), and the claims below.
-/
import proofs.«134071_j14491219657349_1_alg».proof.Defs
import proofs.«134071_j14491219657349_1_alg».proof.Proof.Gen.Kernel
import proofs.«134071_j14491219657349_1_alg».proof.Proof.Gen.Kernel.Frame
import proofs.«134071_j14491219657349_1_alg».proof.Proof.Gen.KernelIdeal
import proofs.«134071_j14491219657349_1_alg».proof.Proof.Gen.KernelIdeal.Frame
import proofs.«134071_j14491219657349_1_alg».proof.Proof.Gen.ReferenceIdeal
import proofs.«134071_j14491219657349_1_alg».proof.Proof.Gen.ReferenceIdeal.Run
import proofs.«134071_j14491219657349_1_alg».proof.Proof.Gen.ReferenceIdeal.Read
import proofs.«134071_j14491219657349_1_alg».proof.Proof.Gen.Pre_finite_inputs
import proofs.«134071_j14491219657349_1_alg».proof.Proof.KernelValue
import proofs.«134071_j14491219657349_1_alg».proof.Proof.SameFunction
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to restate. -/
theorem preserves : Cert.preserves_Kernel_KernelIdeal := trivial

/-- From memories agreeing on the arguments both programs end with the result array at `layer` of the arguments: the
    kernel by its two regions read as whole-array functions, the reference by its last stage read at an index. -/
theorem algebraic : Cert.algebraic_KernelIdeal_ReferenceIdeal := by
  intro m ρ m' ρ' _ hagree
  refine ⟨fun c => Cert.KernelIdeal.Whole.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1,
    (hagree c).2.2.2.2]
  exact (Cert.SameFunction.layer_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
